-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024 : Shape := ⟨1, ![1024]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S1024x128 .f32) (main_arg1 : IVec S1024 32) (main_arg2 : FVec F S100000x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  main_v8
-- ==== Kernel.lean ====
abbrev S1024x128 : Shape := ⟨2, ![1024, 128]⟩
abbrev S1024 : Shape := ⟨1, ![1024]⟩
abbrev S100000x128 : Shape := ⟨2, ![100000, 128]⟩
abbrev S1x1024 : Shape := ⟨2, ![1, 1024]⟩
abbrev S_ : Shape := ⟨0, ![]⟩
abbrev S1x1 : Shape := ⟨2, ![1, 1]⟩
abbrev S1000x128 : Shape := ⟨2, ![1000, 128]⟩
abbrev S1000x1024 : Shape := ⟨2, ![1000, 1024]⟩
abbrev S1000 : Shape := ⟨1, ![1000]⟩
abbrev S1000x1 : Shape := ⟨2, ![1000, 1]⟩
abbrev S1 : Shape := ⟨1, ![1]⟩

abbrev nBuf : Space → Nat
  | .hbm => 12
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S1x1024, .i32⟩
  | .hbm, ⟨4, _⟩ => ⟨S1024x128, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1000x128, .f32⟩
  | .local _ .vmem, ⟨1, _⟩ => ⟨S1000x128, .f32⟩
  | .local _ .vmem, ⟨2, _⟩ => ⟨S1024x128, .f32⟩
  | .local _ .vmem, ⟨3, _⟩ => ⟨S1x1024, .f32⟩
  | .local _ .vmem, ⟨4, _⟩ => ⟨S1x1024, .i32⟩
  | .local _ .vmem, ⟨5, _⟩ => ⟨S1x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S1024_S1x1024 : S1024.ShapeCasts S1x1024
  reducesTo_S1024x128_S1024_d1 : S1024x128.ReducesTo [1] S1024
  h_S_ : 0 < S_.numel
  inb_S1x1_S1x1_0_0 : ∀ a, (![0, 0] : Fin 2 → Nat) a + S1x1.size a ≤ S1x1.size a
  h_S1x1 : 0 < S1x1.numel
  inb_S1000x128_S1000x128_0_0 : ∀ a, (![0, 0] : Fin 2 → Nat) a + S1000x128.size a ≤ S1000x128.size a
  h_S1000x128 : 0 < S1000x128.numel
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  reduces_S1000x128_S1000 : S1000x128.Reduces [1] S1000
  shapeCasts_S1000_S1000x1 : S1000.ShapeCasts S1000x1
  broadcasts_S1000x1_S1000x1024 : S1000x1.Broadcasts S1000x1024
  broadcasts_S1x1024_S1000x1024 : S1x1024.Broadcasts S1000x1024
  iota_S1000x1_d0_w32 : S1000x1.Iotas .tc 32 [0]
  reduces_S1000x1024_S1000 : S1000x1024.Reduces [1] S1000
  reduces_S1000x1_S1 : S1000x1.Reduces [0] S1
  shapeCasts_S1_S1x1 : S1.ShapeCasts S1x1
  shapeCasts_S1x1_S1x1 : S1x1.ShapeCasts S1x1
  shapeCasts_S1x1_S_ : S1x1.ShapeCasts S_
  dot_S1000x128_S1024x128_S1000x1024_1_1_0_0_n_n_wf : DotDims.WF S1000x128 S1024x128 S1000x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .i32 = 32 ∨ (Rect.block (s := S1x1024) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1000x128_S1024x128_S1000x1024_1_1_0_0_n_n : DotDims S1000x128 S1024x128 S1000x1024 where
  lhsContracting := [1]
  rhsContracting := [1]
  lhsNonContracting := [0]
  rhsNonContracting := [0]
  lhsBatch := []
  rhsBatch := []
  wf := dot_S1000x128_S1024x128_S1000x1024_1_1_0_0_n_n_wf

abbrev win0_0 : Pipeline.Window sig grid0 :=
  Pipeline.Window.ofSpec (Memref.whole main_arg2) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024 : Shape := ⟨1, ![1024]⟩
abbrev S100000x128 : Shape := ⟨2, ![100000, 128]⟩
abbrev S_ : Shape := ⟨0, ![]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S128x100000 : Shape := ⟨2, ![128, 100000]⟩

abbrev nBuf : Space → Nat
  | .hbm => 40
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S1024x128, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S100000x128, .f32⟩
  | .hbm, ⟨8, _⟩ => ⟨S_, .f32⟩
  | .hbm, ⟨9, _⟩ => ⟨S100000, .f32⟩
  | .hbm, ⟨10, _⟩ => ⟨S1x100000, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S128x100000, .f32⟩
  | .hbm, ⟨15, _⟩ => ⟨S1024x100000, .f32⟩
  | .hbm, ⟨16, _⟩ => ⟨S_, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S1024x1, .i32⟩
  | .hbm, ⟨21, _⟩ => ⟨S100000, .i32⟩
  | .hbm, ⟨22, _⟩ => ⟨S1x100000, .i32⟩
  | .hbm, ⟨23, _⟩ => ⟨S1024x100000, .i32⟩
  | .hbm, ⟨24, _⟩ => ⟨S1024x100000, .i32⟩
  | .hbm, ⟨25, _⟩ => ⟨S1024x100000, .i1⟩
  | .hbm, ⟨26, _⟩ => ⟨S1024x100000, .f32⟩
  | .hbm, ⟨27, _⟩ => ⟨S1024x100000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1024x100000, .f32⟩
  | .hbm, ⟨32, _⟩ => ⟨S1024x100000, .f32⟩
  | .hbm, ⟨33, _⟩ => ⟨S_, .f32⟩
  | .hbm, ⟨34, _⟩ => ⟨S1024x100000, .f32⟩
  | .hbm, ⟨35, _⟩ => ⟨S1024x100000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  reducesTo_S100000x128_S100000_d1 : S100000x128.ReducesTo [1] S100000
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x128_S128x100000_1_0 : S100000x128.Transposes [1, 0] S128x100000
  bcast_S_S1024x100000 : S_.BroadcastsInDim S1024x100000 (![] : Fin 0 → Fin S1024x100000.rank)
  reducesTo_S1024x100000_S_d0_1 : S1024x100000.ReducesTo [0, 1] S_
  dot_S1024x128_S128x100000_S1024x100000_1_0_0_1_n_n_wf : DotDims.WF S1024x128 S128x100000 S1024x100000 [1] [0] [0] [1] [] []

variable [Facts₀]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf

class Facts : Prop extends Facts₀ where

variable [Facts]
-- ==== Proof.Spec.lean ====
/-
  The center loss as one function of the three argument arrays, on the extended reals.

  For a sample `b` and a class `c` the clipped, label-masked squared distance is
      cell b c = min HI (max LO (if label b = c then (|x_b|² + |cen_c|²) - 2·⟨x_b, cen_c⟩ else 0)),
  the loss is the sum of all cells divided by the batch size. The sum over the classes is cut into
  100 tiles of 1000 consecutive classes (`sum_tiles`), and a product with the 0/1 value of an equality
  test is the `if` on the equality (`mul_mask`): the two re-arrangements the two programs differ by.
-/
import Idealize.ShloMosaic.PureOps.Ideal
import Idealize.ShloMosaic.PureOps.Ideal.Laws
import Idealize.ShloMosaic.Lib.ValueIdx

noncomputable section

open scoped BigOperators

namespace Cert.CenterLoss

open Idealize.ShloMosaic Idealize.ShloMosaic.ValueIdx

/-- The samples' shape, the labels' and the class centers'. -/
abbrev SX : Shape := ⟨2, ![1024, 128]⟩
abbrev SL : Shape := ⟨1, ![1024]⟩
abbrev SC : Shape := ⟨2, ![100000, 128]⟩

/-- The lower and the upper clipping bound and the factor two, as the binary values both programs spell. -/
def LO : EReal := Ideal.ofBits .f32 0x2B8CBCCC#32
def HI : EReal := Ideal.ofBits .f32 0x5368D4A5#32
def TWO : EReal := Ideal.ofBits .f32 0x40000000#32

/-- The squared norm of sample `b`. -/
def xsq (x : SX.Idx → EReal) (b : Fin 1024) : EReal := ∑ k : Fin 128, x (ix2 b k) * x (ix2 b k)
/-- The squared norm of center `c`. -/
def csq (cen : SC.Idx → EReal) (c : Fin 100000) : EReal := ∑ k : Fin 128, cen (ix2 c k) * cen (ix2 c k)
/-- The inner product of sample `b` and center `c`. -/
def dot (x : SX.Idx → EReal) (cen : SC.Idx → EReal) (b : Fin 1024) (c : Fin 100000) : EReal :=
  ∑ k : Fin 128, x (ix2 b k) * cen (ix2 c k)

/-- The clipped squared distance of sample `b` to center `c` where `c` is the sample's label, the clipped zero elsewhere. -/
def cell (x : SX.Idx → EReal) (lab : SL.Idx → BitVec 32) (cen : SC.Idx → EReal) (b : Fin 1024) (c : Fin 100000) : EReal :=
  min HI (max LO (if lab (ix1 b) = BitVec.ofNat 32 c.val then (xsq x b + csq cen c) - TWO * dot x cen b c else 0))

/-- The sum of all cells. -/
def total (x : SX.Idx → EReal) (lab : SL.Idx → BitVec 32) (cen : SC.Idx → EReal) : EReal :=
  ∑ c : Fin 100000, ∑ b : Fin 1024, cell x lab cen b c

/-- The loss: the total over the batch size (the binary value of 1024). -/
def loss (x : SX.Idx → EReal) (lab : SL.Idx → BitVec 32) (cen : SC.Idx → EReal) : EReal :=
  Ideal.div (total x lab cen) (Ideal.ofBits .f32 0x44800000#32)

/-- Class `1000·t + r` of tile `t`. -/
def cls (t : Fin 100) (r : Fin 1000) : Fin 100000 := ⟨1000 * t.val + r.val, by omega⟩

/-- Tile `t`'s share of the total: its 1000 classes' cells. -/
def tile (x : SX.Idx → EReal) (lab : SL.Idx → BitVec 32) (cen : SC.Idx → EReal) (t : Fin 100) : EReal :=
  ∑ r : Fin 1000, ∑ b : Fin 1024, cell x lab cen b (cls t r)

/-- A sum over the 100000 classes is the sum over the 100 tiles of the sums over each tile's 1000 classes. -/
theorem sum_tiles (f : Fin 100000 → EReal) : ∑ c, f c = ∑ t : Fin 100, ∑ r : Fin 1000, f (cls t r) := by
  rw [← Equiv.sum_comp (finProdFinEquiv (m := 100) (n := 1000)) f, Fintype.sum_prod_type]
  refine Finset.sum_congr rfl fun t _ => Finset.sum_congr rfl fun r _ => congrArg f (Fin.ext ?_)
  simp only [finProdFinEquiv, Equiv.coe_fn_mk, cls]
  omega

/-- The total is the sum of the tiles. -/
theorem total_eq_sum_tiles (x : SX.Idx → EReal) (lab : SL.Idx → BitVec 32) (cen : SC.Idx → EReal) :
    total x lab cen = ∑ t : Fin 100, tile x lab cen t :=
  sum_tiles _

/-- The tiles as a sequence over the naturals (zero past the last), for a running sum over `Finset.range`. -/
def tileN (x : SX.Idx → EReal) (lab : SL.Idx → BitVec 32) (cen : SC.Idx → EReal) (t : ℕ) : EReal :=
  if h : t < 100 then tile x lab cen ⟨t, h⟩ else 0

theorem tileN_of_lt (x : SX.Idx → EReal) (lab : SL.Idx → BitVec 32) (cen : SC.Idx → EReal) (t : Fin 100) :
    tileN x lab cen t.val = tile x lab cen t := by
  unfold tileN
  rw [dif_pos t.isLt]

/-- The total is the running sum of the tiles after the last one. -/
theorem total_eq_range (x : SX.Idx → EReal) (lab : SL.Idx → BitVec 32) (cen : SC.Idx → EReal) :
    total x lab cen = ∑ t ∈ Finset.range 100, tileN x lab cen t := by
  rw [total_eq_sum_tiles, ← Fin.sum_univ_eq_sum_range (fun t => tileN x lab cen t) 100]
  exact Finset.sum_congr rfl fun t _ => (tileN_of_lt x lab cen t).symm

/-- A product with the value of an equality test — one where it holds, zero where not — is the choice between the
    factor and zero (on the extended reals `a · 0 = 0` for every `a`, the infinities too). -/
theorem mul_mask (a : EReal) (l k : BitVec 32) :
    a * (((IntOp.cmpi .eq l k).toNat : ℝ) : EReal) = if l = k then a else 0 := by
  by_cases h : l = k
  · subst h
    simp [IntOp.cmpi]
  · simp [IntOp.cmpi, h]

/-- A select on an equality test is the choice on the equality. -/
theorem select_eq {α : Type} (l k : BitVec 32) (a b : α) :
    Scalar.select (IntOp.cmpi .eq l k) a b = if l = k then a else b := by
  unfold Scalar.select IntOp.cmpi
  by_cases h : l = k
  · subst h
    simp
  · have hb : (l == k) = false := by simpa using h
    simp [hb, h]

/-- Row `r` of tile `t` is class `1000·t + r`, as 32-bit words: no carry is lost below 2³². -/
theorem word_cls (t : Fin 100) (r : Fin 1000) :
    BitVec.ofNat 32 r.val + BitVec.ofNat 32 t.val * 1000#32 = BitVec.ofNat 32 (cls t r).val := by
  apply BitVec.eq_of_toNat_eq
  have ht := t.isLt
  have hr := r.isLt
  simp only [BitVec.toNat_add, BitVec.toNat_mul, BitVec.toNat_ofNat, cls]
  omega

end Cert.CenterLoss

end
-- ==== Proof.RefSide.lean ====
/-
  The reference, read cell by cell: its clipped, masked distance matrix at (b, c) is the specification's cell, its
  total sum over the 1024 × 100000 matrix is the specification's total, and its result is the loss.
-/
import proofs.«114083_j8040178778749_1_alg».proof.Proof.Gen.ReferenceIdeal.Read
import proofs.«114083_j8040178778749_1_alg».proof.Proof.Spec

noncomputable section

open scoped BigOperators

namespace Cert.ReferenceIdeal.RefValue

open Cert.ReferenceIdeal Cert.ReferenceIdeal.Read Cert.CenterLoss
open Idealize.ShloMosaic Idealize.ShloMosaic.ValueIdx

/-- The unsigned value of a one-bit word as an extended real. -/
theorem uitofp_bit (w : BitVec 1) : FloatOps.uitofp (F := Ideal) .f32 w = ((w.toNat : ℝ) : EReal) := rfl

/-- The reference's clipped matrix at sample `b` and class `c` is the cell: its masking product is the choice on the
    label, its squared norms and inner product are the sums over the 128 features. -/
theorem clipped_apply (x0 : SX.Idx → EReal) (x1 : SL.Idx → BitVec 32) (x2 : SC.Idx → EReal) (b : Fin 1024) (c : Fin 100000) :
    val_main_v22 (F := Ideal) x0 x1 x2 (ix2 b c) = cell x0 x1 x2 b c := by
  simp only [val_main_v22_apply, val_main_call0_v4_apply, val_main_call0_v3_apply, val_main_cst_3_apply,
    val_main_call0_v2_apply, val_main_call0_v1_apply, val_main_call0_v0_apply, val_main_cst_2_apply,
    val_main_v21_apply, val_main_v20_apply, val_main_v19_apply, val_main_v18_apply, val_main_v16_apply, val_main_v15_apply,
    val_main_v17_apply, val_main_v14_apply, val_main_v13_apply, val_main_v12_apply, val_main_v11_apply, val_main_cst_1_apply,
    val_main_v10_apply, val_main_v9_apply, val_main_v8_apply, val_main_v7_apply, val_main_v5_apply, val_main_v4_apply,
    val_main_cst_0_apply, val_main_v3_apply, val_main_v6_apply, val_main_v2_apply, val_main_v1_apply, val_main_cst_apply,
    val_main_v0_apply, Ideal.ofBits_def, Ideal.mulf_def, Ideal.addf_def, Ideal.subf_def, Ideal.maximumf_def, Ideal.minimumf_def,
    uitofp_bit, mul_mask, Ideal.ofBits_zero_f32, zero_add]
  have e1 : ∀ k : Fin 128, idx_main_v1 (idx_main_v2 (idx_main_v6 (ix2 b c))) k = ix2 b k := fun k =>
    funext fun a => Fin.ext (by match a with | ⟨0, _⟩ => rfl | ⟨1, _⟩ => rfl)
  have e2 : ∀ k : Fin 128, idx_main_v4 (idx_main_v5 (idx_main_v7 (ix2 b c))) k = ix2 c k := fun k =>
    funext fun a => Fin.ext (by match a with | ⟨0, _⟩ => rfl | ⟨1, _⟩ => rfl)
  have e3 : ∀ k : Fin 128, lidx_main_v10 (ix2 b c) k = ix2 b k := fun k =>
    funext fun a => Fin.ext (by match a with | ⟨0, _⟩ => rfl | ⟨1, _⟩ => rfl)
  have e4 : ∀ k : Fin 128, idx_main_v9 (ridx_main_v10 (ix2 b c) k) = ix2 c k := fun k =>
    funext fun a => Fin.ext (by match a with | ⟨0, _⟩ => rfl | ⟨1, _⟩ => rfl)
  have e5 : idx_main_v14 (idx_main_v17 (ix2 b c)) = ix1 b :=
    funext fun a => Fin.ext (by match a with | ⟨0, _⟩ => rfl)
  simp only [e1, e2, e3, e4, e5]
  rfl

/-- The reference's total: the sum over the whole matrix, sample by sample and class by class, is the sum class by
    class and sample by sample (the extended reals' addition commutes and associates). -/
theorem total_apply (x0 : SX.Idx → EReal) (x1 : SL.Idx → BitVec 32) (x2 : SC.Idx → EReal) (i : S_.Idx) :
    val_main_v23 (F := Ideal) x0 x1 x2 i = total x0 x1 x2 := by
  rw [val_main_v23_apply, val_main_cst_4_apply, Ideal.ofBits_def, Ideal.ofBits_zero_f32, zero_add, sum_idx2, Finset.sum_comm]
  exact Finset.sum_congr rfl fun c _ => Finset.sum_congr rfl fun b _ => clipped_apply x0 x1 x2 b c

/-- The reference's result is the loss. -/
theorem result_eq (x0 : SX.Idx → EReal) (x1 : SL.Idx → BitVec 32) (x2 : SC.Idx → EReal) :
    val_main_v24 (F := Ideal) x0 x1 x2 = fun _ => loss x0 x1 x2 := by
  funext i
  rw [val_main_v24_apply, val_main_cst_5_apply, total_apply]
  rfl

end Cert.ReferenceIdeal.RefValue

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.TilePayload.lean ====
/-
  One tile's arithmetic, read entry by entry at the ideal values. For 1000 consecutive centers `v3`, the samples `v4`,
  the samples' squared norms `v5` (one row) and the labels `v7` (one row), at grid position `i`:
    dist r b    = (|v3_r|² + v5_b) - 2·⟨v3_r, v4_b⟩                     (the product contracts the feature axis of both)
    mask r b    = (r + 1000·i = v7_b), as 32-bit words
    clipped r b = min HI (max LO (if mask r b then dist r b else 0))
  and the tile's value is the sum of `clipped` over the samples `b` and then over the rows `r`.
-/
import proofs.«114083_j8040178778749_1_alg».proof.Proof.Gen.KernelIdeal.Skeleton
import proofs.«114083_j8040178778749_1_alg».proof.Proof.Spec
import proofs.«114083_j8040178778749_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Cert.CenterLoss Cert.LibKeepdims
open Idealize.ShloMosaic Idealize.ShloMosaic.ValueIdx

/-! ## The product of the centers with the samples, both contracted along their feature axis -/

theorem lhs_row (j : S1000x1024.Idx) (q : dot_S1000x128_S1024x128_S1000x1024_1_1_0_0_n_n.contr.Idx) :
    (dot_S1000x128_S1024x128_S1000x1024_1_1_0_0_n_n.lhsIdx j q 0).val = (j 0).val := by
  unfold DotDims.lhsIdx
  rw [dif_neg (show ¬(0 : Fin S1000x128.rank) ∈ dot_S1000x128_S1024x128_S1000x1024_1_1_0_0_n_n.lhsBatch by decide),
    dif_pos (show (0 : Fin S1000x128.rank) ∈ dot_S1000x128_S1024x128_S1000x1024_1_1_0_0_n_n.lhsNonContracting by decide)]
  rfl
theorem lhs_feature (j : S1000x1024.Idx) (q : dot_S1000x128_S1024x128_S1000x1024_1_1_0_0_n_n.contr.Idx) :
    (dot_S1000x128_S1024x128_S1000x1024_1_1_0_0_n_n.lhsIdx j q 1).val = (q ⟨0, by decide⟩).val :=
  dot_S1000x128_S1024x128_S1000x1024_1_1_0_0_n_n.lhsIdx_val_of_single rfl j q
theorem rhs_row (j : S1000x1024.Idx) (q : dot_S1000x128_S1024x128_S1000x1024_1_1_0_0_n_n.contr.Idx) :
    (dot_S1000x128_S1024x128_S1000x1024_1_1_0_0_n_n.rhsIdx j q 0).val = (j 1).val := by
  unfold DotDims.rhsIdx
  rw [dif_neg (show ¬(0 : Fin S1024x128.rank) ∈ dot_S1000x128_S1024x128_S1000x1024_1_1_0_0_n_n.rhsBatch by decide),
    dif_pos (show (0 : Fin S1024x128.rank) ∈ dot_S1000x128_S1024x128_S1000x1024_1_1_0_0_n_n.rhsNonContracting by decide)]
  rfl
theorem rhs_feature (j : S1000x1024.Idx) (q : dot_S1000x128_S1024x128_S1000x1024_1_1_0_0_n_n.contr.Idx) :
    (dot_S1000x128_S1024x128_S1000x1024_1_1_0_0_n_n.rhsIdx j q 1).val = (q ⟨0, by decide⟩).val :=
  dot_S1000x128_S1024x128_S1000x1024_1_1_0_0_n_n.rhsIdx_val_of_single rfl j q

/-- Into the zero splat, the product at `(r, b)` is the inner product of row `r` of the left operand with row `b` of
    the right one. -/
theorem dot_apply (lhs : FVec Ideal S1000x128 .bf16) (rhs : FVec Ideal S1024x128 .bf16) (r : Fin 1000) (b : Fin 1024) :
    matmul dot_S1000x128_S1024x128_S1000x1024_1_1_0_0_n_n none lhs rhs (constant S1000x1024 .f32 0x00000000#32) (ix2 r b)
      = ∑ k : Fin 128, lhs (ix2 r k) * rhs (ix2 b k) := by
  simp only [matmul]
  rw [Ideal.matmul_constant_zero_apply,
    ← Equiv.sum_comp (ValueIdx.contrEquiv1 dot_S1000x128_S1024x128_S1000x1024_1_1_0_0_n_n 128 rfl rfl).symm]
  refine Finset.sum_congr rfl fun k _ => ?_
  have hk := ValueIdx.contrEquiv1_symm_val dot_S1000x128_S1024x128_S1000x1024_1_1_0_0_n_n 128 rfl rfl k
  have el : dot_S1000x128_S1024x128_S1000x1024_1_1_0_0_n_n.lhsIdx (ix2 r b)
      ((ValueIdx.contrEquiv1 dot_S1000x128_S1024x128_S1000x1024_1_1_0_0_n_n 128 rfl rfl).symm k) = ix2 r k :=
    funext fun a => Fin.ext (by
      match a with
      | ⟨0, _⟩ => exact lhs_row _ _
      | ⟨1, _⟩ => exact (lhs_feature _ _).trans hk)
  have er : dot_S1000x128_S1024x128_S1000x1024_1_1_0_0_n_n.rhsIdx (ix2 r b)
      ((ValueIdx.contrEquiv1 dot_S1000x128_S1024x128_S1000x1024_1_1_0_0_n_n 128 rfl rfl).symm k) = ix2 b k :=
    funext fun a => Fin.ext (by
      match a with
      | ⟨0, _⟩ => exact rhs_row _ _
      | ⟨1, _⟩ => exact (rhs_feature _ _).trans hk)
  rw [el, er]

/-! ## The tile's stages -/

/-- The distances of the tile's 1000 centers to the 1024 samples. -/
def dist (v3 : FVec Ideal S1000x128 .f32) (v4 : FVec Ideal S1024x128 .f32) (v5 : FVec Ideal S1x1024 .f32) : FVec Ideal S1000x1024 .f32 :=
  subf (addf
      (broadcastTo S1000x1024 (shapeCast S1000x1 (multiReduction .add [1] S1000 (mulf v3 v3) 0x00000000#32 reduces_S1000x128_S1000 (.inl rfl) rfl) shapeCasts_S1000_S1000x1) broadcasts_S1000x1_S1000x1024)
      (broadcastTo S1000x1024 (shapeCast S1x1024 v5 shapeCasts_S1x1024_S1x1024) broadcasts_S1x1024_S1000x1024))
    (mulf (broadcast S1000x1024 (Scalar.ofBits (F := Ideal) .f32 0x40000000#32))
      (matmul dot_S1000x128_S1024x128_S1000x1024_1_1_0_0_n_n none (truncf .bf16 v3 bitsLt_bf16_f32) (truncf .bf16 v4 bitsLt_bf16_f32) (constant S1000x1024 .f32 0x00000000#32)))

/-- Which of the tile's centers is which sample's label. -/
def mask (i : grid0.Coords) (v7 : IVec S1x1024 32) : IVec S1000x1024 1 :=
  cmpi .eq
    (broadcastTo S1000x1024 (addi (iota .tc S1000x1 32 [0] iota_S1000x1_d0_w32) (broadcast S1000x1 (Scalar.muli (BitVec.ofNat 32 (i 0).val) 1000#32))) broadcasts_S1000x1_S1000x1024)
    (broadcastTo S1000x1024 (shapeCast S1x1024 v7 shapeCasts_S1x1024_S1x1024) broadcasts_S1x1024_S1000x1024)

/-- The masked distances, clipped. -/
def clipped (i : grid0.Coords) (v3 : FVec Ideal S1000x128 .f32) (v4 : FVec Ideal S1024x128 .f32) (v5 : FVec Ideal S1x1024 .f32) (v7 : IVec S1x1024 32) :
    FVec Ideal S1000x1024 .f32 :=
  minimumf (broadcast S1000x1024 (Scalar.ofBits (F := Ideal) .f32 0x5368D4A5#32))
    (maximumf (broadcast S1000x1024 (Scalar.ofBits (F := Ideal) .f32 0x2B8CBCCC#32))
      (select (mask i v7) (dist v3 v4 v5) (broadcast S1000x1024 (Scalar.ofBits (F := Ideal) .f32 0x00000000#32))))

/-- The tile's value is the sum of the clipped matrix along its rows and then down the column of row sums. -/
theorem pay3_eq (i : grid0.Coords) (v3 : Vec Ideal S1000x128 .f32) (v4 : Vec Ideal S1024x128 .f32) (v5 : Vec Ideal S1x1024 .f32) (v7 : Vec Ideal S1x1024 .i32) :
    k0_pay3 (F := Ideal) i v3 v4 v5 v7
      = shapeCast S1x1 (multiReduction .add [0] S1
          (shapeCast S1000x1 (multiReduction .add [1] S1000 (clipped i v3 v4 v5 v7) 0x00000000#32 reduces_S1000x1024_S1000 (.inl rfl) rfl) shapeCasts_S1000_S1000x1)
          0x00000000#32 reduces_S1000x1_S1 (.inl rfl) rfl) shapeCasts_S1_S1x1 := rfl

theorem dist_apply (v3 : FVec Ideal S1000x128 .f32) (v4 : FVec Ideal S1024x128 .f32) (v5 : FVec Ideal S1x1024 .f32) (r : Fin 1000) (b : Fin 1024) :
    dist v3 v4 v5 (ix2 r b)
      = ((∑ k : Fin 128, v3 (ix2 r k) * v3 (ix2 r k)) + v5 (ix2 (0 : Fin 1) b)) - TWO * ∑ k : Fin 128, v3 (ix2 r k) * v4 (ix2 b k) := by
  unfold dist
  rw [subf_apply, addf_apply, mulf_apply, broadcast_apply, broadcastTo_a1_ab_apply, shapeCast_a_a1_apply,
    broadcastTo_1b_ab_apply, shapeCast_self, dot_apply]
  refine congrArg₂ (· - ·) (congrArg₂ (· + ·) ?_ rfl) rfl
  exact rowSum_apply (mulf v3 v3) _ _ _ _ r

theorem mask_apply (i : grid0.Coords) (v7 : IVec S1x1024 32) (r : Fin 1000) (b : Fin 1024) :
    mask i v7 (ix2 r b) = IntOp.cmpi .eq (BitVec.ofNat 32 r.val + BitVec.ofNat 32 (i 0).val * 1000#32) (v7 (ix2 (0 : Fin 1) b)) := by
  unfold mask
  show IntOp.cmpi .eq (broadcastTo S1000x1024 _ broadcasts_S1000x1_S1000x1024 (ix2 r b)) (broadcastTo S1000x1024 _ broadcasts_S1x1024_S1000x1024 (ix2 r b)) = _
  rw [broadcastTo_a1_ab_apply, broadcastTo_1b_ab_apply, shapeCast_self]
  show IntOp.cmpi .eq (IntOp.addi (iota .tc S1000x1 32 [0] iota_S1000x1_d0_w32 (ix2 r (0 : Fin 1))) _) _ = _
  rw [iota_single_apply]
  rfl

theorem clipped_apply (i : grid0.Coords) (v3 : FVec Ideal S1000x128 .f32) (v4 : FVec Ideal S1024x128 .f32) (v5 : FVec Ideal S1x1024 .f32) (v7 : IVec S1x1024 32)
    (r : Fin 1000) (b : Fin 1024) :
    clipped i v3 v4 v5 v7 (ix2 r b)
      = min HI (max LO (if BitVec.ofNat 32 r.val + BitVec.ofNat 32 (i 0).val * 1000#32 = v7 (ix2 (0 : Fin 1) b) then
          ((∑ k : Fin 128, v3 (ix2 r k) * v3 (ix2 r k)) + v5 (ix2 (0 : Fin 1) b)) - TWO * ∑ k : Fin 128, v3 (ix2 r k) * v4 (ix2 b k) else 0)) := by
  unfold clipped
  rw [minimumf_apply, maximumf_apply, select_apply, mask_apply, dist_apply, select_eq, broadcast_apply, broadcast_apply, broadcast_apply]
  show min HI (max LO (if _ then _ else Ideal.ofBits .f32 0x00000000#32)) = _
  rw [Ideal.ofBits_zero_f32]

/-- With the tile's blocks read off the argument arrays — the centers `1000·t + r`, the samples, the samples' squared
    norms and the labels — the tile's value, at its one index, is the specification's tile `t`: row `r` of the tile is
    class `1000·t + r`, the equality test and the sum of the two squared norms are symmetric, and so is each product
    under the inner product's sum. -/
theorem pay3_apply (x : SX.Idx → EReal) (lab : SL.Idx → BitVec 32) (cen : SC.Idx → EReal) (t : Fin 100) (i : grid0.Coords) (hi : (i 0).val = t.val)
    (v3 : Vec Ideal S1000x128 .f32) (v4 : Vec Ideal S1024x128 .f32) (v5 : Vec Ideal S1x1024 .f32) (v7 : Vec Ideal S1x1024 .i32)
    (h3 : ∀ (r : Fin 1000) (k : Fin 128), v3 (ix2 r k) = cen (ix2 (cls t r) k))
    (h4 : ∀ (b : Fin 1024) (k : Fin 128), v4 (ix2 b k) = x (ix2 b k))
    (h5 : ∀ b : Fin 1024, v5 (ix2 (0 : Fin 1) b) = xsq x b)
    (h7 : ∀ b : Fin 1024, v7 (ix2 (0 : Fin 1) b) = lab (ix1 b)) (j : S1x1.Idx) :
    k0_pay3 (F := Ideal) i v3 v4 v5 v7 j = tile x lab cen t := by
  rw [pay3_eq]
  obtain ⟨u, w, rfl⟩ : ∃ (u : Fin 1) (w : Fin 1), j = ix2 u w := ⟨j 0, j 1, eq_ix2 j⟩
  refine (shapeCast_a_1a_apply _ _ u w).trans ?_
  refine (colSum_apply _ _ _ _ _ w).trans ?_
  unfold tile
  refine Finset.sum_congr rfl fun r _ => ?_
  refine (shapeCast_a_a1_apply _ _ r 0).trans ?_
  refine (rowSum_apply (clipped i v3 v4 v5 v7) _ _ _ _ r).trans ?_
  refine Finset.sum_congr rfl fun b _ => ?_
  rw [clipped_apply, hi, word_cls, h7, h5]
  unfold cell csq dot
  simp only [h3, h4]
  have hm : (∑ k : Fin 128, cen (ix2 (cls t r) k) * x (ix2 b k)) = ∑ k : Fin 128, x (ix2 b k) * cen (ix2 (cls t r) k) :=
    Finset.sum_congr rfl fun k _ => mul_comm _ _
  rw [hm, add_comm (xsq x b)]
  by_cases hl : lab (ix1 b) = BitVec.ofNat 32 (cls t r).val
  · rw [if_pos hl, if_pos hl.symm]
  · rw [if_neg hl, if_neg (fun e => hl e.symm)]

end Cert.KernelIdeal.TileValue

end
-- ==== Proof.Blocks.lean ====
/-
  What the region's windows hold. Window 0's block at grid point `t` is rows `1000·t … 1000·t + 999` of the centers;
  the other three input windows never move and hold, whole, the samples, the row of the samples' squared norms (the
  host's sum of squares along the feature axis, recast as one row) and the row of labels.
-/
import proofs.«114083_j8040178778749_1_alg».proof.Proof.Gen.KernelIdeal.Frame
import proofs.«114083_j8040178778749_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

open Idealize.ShloMosaic Idealize.ShloMosaic.TcCoe Idealize.SL.Sem

namespace Cert.KernelIdeal.Blocks

open Cert.KernelIdeal Cert.KernelIdeal.Gen Cert.CenterLoss
open Idealize.ShloMosaic.ValueIdx

variable (m : (ℓ : Loc nD τ sig) → Buf (Elt Ideal) ℓ)

/-! ## The block index of each window at each grid point -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

/-! ## The two arrays the host computes before the region -/

/-- The row of squared norms: the samples squared, summed along the features from zero, recast as one row. -/
theorem V_sqnorms (c : Dev nD) : (V m c main_v3 : S1x1024.Idx → EReal)
    = shapeCast S1x1024 (Host.reduceAdd (F := Ideal) (mulf (m ((c : Thread nD τ).loc main_arg0)) (m ((c : Thread nD τ).loc main_arg0)))
        (constant (F := Ideal) S_ .f32 0x00000000#32) reducesTo_S1024x128_S1024_d1 h_S_) shapeCasts_S1024_S1x1024 := by
  show StableHlo.after hostOps0 (fun b => m (c, b)) (Proc.devRef .tc main_v3) = _
  after_results
  rfl

/-- The row of labels: the labels recast as one row. -/
theorem V_labels (c : Dev nD) : (V m c main_v0 : S1x1024.Idx → BitVec 32)
    = shapeCast S1x1024 (m ((c : Thread nD τ).loc main_arg1)) shapeCasts_S1024_S1x1024 := by
  show StableHlo.after hostOps0 (fun b => m (c, b)) (Proc.devRef .tc main_v0) = _
  after_results
  rfl

/-- The host's sum of squares of sample `b` is the specification's squared norm. -/
theorem sqnorm_apply (x : FVec Ideal S1024x128 .f32) (b : Fin 1024) :
    shapeCast S1x1024 (Host.reduceAdd (F := Ideal) (mulf x x) (constant (F := Ideal) S_ .f32 0x00000000#32) reducesTo_S1024x128_S1024_d1 h_S_)
      shapeCasts_S1024_S1x1024 (ix2 (0 : Fin 1) b) = xsq x b := by
  refine (shapeCast_a_1a_apply _ _ (0 : Fin 1) b).trans ?_
  generalize hy : mulf x x = y
  simp only [Host.reduceAdd, Ideal.hostReduceAdd_def]
  rw [Ideal.hostReduceAdd_single reducesTo_S1024x128_S1024_d1 (by decide)]
  show Ideal.ofBits .f32 0x00000000#32 + _ = _
  rw [Ideal.ofBits_zero_f32, zero_add]
  subst hy
  unfold xsq
  refine Finset.sum_congr rfl fun k _ => ?_
  show x _ * x _ = _
  have e : (Shape.Reduces.lift (by decide : S1024x128.Reduces [1] S1024) (ix1 b) k) = ix2 b k :=
    funext fun a => Fin.ext (by match a with | ⟨0, _⟩ => rfl | ⟨1, _⟩ => rfl)
  rw [e]
  rfl

/-! ## The blocks read at an index -/

/-- Window 0's block at point `t` reads the centers at row `1000·t + r`. -/
theorem centers_apply (c : Dev nD) (t : Fin cfg0.N) (ht : t.val < 100) (r : Fin 1000) (k : Fin 128) :
    (iblk m c 0 t : Vec Ideal S1000x128 .f32) (ix2 r k) = m ((c : Thread nD τ).loc main_arg2) (ix2 (cls ⟨t.val, ht⟩ r) k) := by
  have hi := index0 t
  unfold iblk
  rw [View.read_apply]
  show V m c main_arg2 _ = _
  rw [V_main_arg2]
  refine congrArg (m ((c : Thread nD τ).loc main_arg2)) (funext fun a => Fin.ext ?_)
  match a with
  | ⟨0, _⟩ => show win0_0.index t 0 * 1000 + 1 * r.val = 1000 * t.val + r.val; rw [hi.1]; omega
  | ⟨1, _⟩ => show win0_0.index t 1 * 128 + 1 * k.val = k.val; rw [hi.2]; omega

/-- Window 1's block is the samples. -/
theorem samples_apply (c : Dev nD) (t : Fin cfg0.N) (b : Fin 1024) (k : Fin 128) :
    (iblk m c 1 t : Vec Ideal S1024x128 .f32) (ix2 b k) = m ((c : Thread nD τ).loc main_arg0) (ix2 b k) := by
  have hi := index1 t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 1024 + 1 * b.val = b.val; rw [hi.1]; omega
  | ⟨1, _⟩ => show win0_1.index t 1 * 128 + 1 * k.val = k.val; rw [hi.2]; omega

/-- Window 2's block is the row of squared norms. -/
theorem sqnorms_apply (c : Dev nD) (t : Fin cfg0.N) (b : Fin 1024) :
    (iblk m c 2 t : Vec Ideal S1x1024 .f32) (ix2 (0 : Fin 1) b) = xsq (m ((c : Thread nD τ).loc main_arg0)) b := by
  have hi := index2 t
  unfold iblk
  rw [View.read_apply]
  show V m c main_v3 _ = _
  rw [V_sqnorms]
  refine Eq.trans (congrArg _ (funext fun a => Fin.ext ?_)) (sqnorm_apply (m ((c : Thread nD τ).loc main_arg0)) b)
  match a with
  | ⟨0, _⟩ => show win0_2.index t 0 * 1 + 1 * 0 = 0; rw [hi.1]
  | ⟨1, _⟩ => show win0_2.index t 1 * 1024 + 1 * b.val = b.val; rw [hi.2]; omega

/-- Window 3's block is the row of labels. -/
theorem labels_apply (c : Dev nD) (t : Fin cfg0.N) (b : Fin 1024) :
    (iblk m c 3 t : Vec Ideal S1x1024 .i32) (ix2 (0 : Fin 1) b) = m ((c : Thread nD τ).loc main_arg1) (ix1 b) := by
  have hi := index3 t
  unfold iblk
  rw [View.read_apply]
  show V m c main_v0 _ = _
  rw [V_labels]
  refine Eq.trans (congrArg _ (funext fun a => Fin.ext ?_)) (shapeCast_a_1a_apply (m ((c : Thread nD τ).loc main_arg1)) _ (0 : Fin 1) b)
  match a with
  | ⟨0, _⟩ => show win0_3.index t 0 * 1 + 1 * 0 = 0; rw [hi.1]
  | ⟨1, _⟩ => show win0_3.index t 1 * 1024 + 1 * b.val = b.val; rw [hi.2]; omega

end Cert.KernelIdeal.Blocks

end
-- ==== Proof.KernelValue.lean ====
/-
  The kernel's result array, read off its run: after grid point `n` the one-entry output block holds the running sum
  of the tiles `0 … n`; the block is written back once, after the last point, and is the whole array.
-/
import proofs.«114083_j8040178778749_1_alg».proof.Proof.Gen.KernelIdeal.Frame
import proofs.«114083_j8040178778749_1_alg».proof.Proof.TilePayload
import proofs.«114083_j8040178778749_1_alg».proof.Proof.Blocks
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.LossValue

open Cert.KernelIdeal Cert.KernelIdeal.Gen Cert.CenterLoss Cert.KernelIdeal.TileValue Cert.LibKeepdims
open Idealize.ShloMosaic.ValueIdx

variable {F : FTy → Type} [FloatOps F]

theorem hz : (![0, 0] : Fin 2 → Nat) = fun _ => 0 := funext fun a => by fin_cases a <;> rfl

/-- Past the first point the body leaves, in the output block holding `xo`, `xo` plus the tile's value. -/
theorem out_B (c : Dev nD) (i : grid0.Coords) (a1 : Memref sig .tc .vmem S1000x128 .f32) (h1 : a1.IsWhole)
    (a2 : Memref sig .tc .vmem S1024x128 .f32) (h2 : a2.IsWhole) (a3 : Memref sig .tc .vmem S1x1024 .f32) (h3 : a3.IsWhole)
    (a4 : Memref sig .tc .vmem S1x1024 .i32) (h4 : a4.IsWhole) (a5 : Memref sig .tc .vmem S1x1 .f32) (h5 : a5.IsWhole) (hc : ¬cond0_0 i)
    (x0 : Vec F S1000x128 .f32) (x1 : Vec F S1024x128 .f32) (x2 : Vec F S1x1024 .f32) (x3 : Vec F S1x1024 .i32) (xo : Vec F S1x1 .f32) :
    out0_B_4 c i a1 h1 a2 h2 a3 h3 a4 h4 a5 h5 hc x0 x1 x2 x3 xo = k0_pay1 (k0_pay3 i x0 x1 x2 x3) xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S1000x128) hz, View.ld_unit_zero (S := S1024x128) hz, View.ld_unit_zero (S := S1x1024) hz,
    View.ld_unit_zero (S := S1x1) hz]

/-- At the first point the body stores the zero block, reads it back, and leaves zero plus the tile's value. -/
theorem out_A (c : Dev nD) (i : grid0.Coords) (a1 : Memref sig .tc .vmem S1000x128 .f32) (h1 : a1.IsWhole)
    (a2 : Memref sig .tc .vmem S1024x128 .f32) (h2 : a2.IsWhole) (a3 : Memref sig .tc .vmem S1x1024 .f32) (h3 : a3.IsWhole)
    (a4 : Memref sig .tc .vmem S1x1024 .i32) (h4 : a4.IsWhole) (a5 : Memref sig .tc .vmem S1x1 .f32) (h5 : a5.IsWhole) (hc : cond0_0 i)
    (x0 : Vec F S1000x128 .f32) (x1 : Vec F S1024x128 .f32) (x2 : Vec F S1x1024 .f32) (x3 : Vec F S1x1024 .i32) :
    out0_A_4 c i a1 h1 a2 h2 a3 h3 a4 h4 a5 h5 hc x0 x1 x2 x3 = k0_pay1 (k0_pay3 i x0 x1 x2 x3) (k0_pay2 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S1000x128) hz, View.ld_unit_zero (S := S1024x128) hz, View.ld_unit_zero (S := S1x1024) hz,
    View.ld_unit_zero (S := S1x1) hz]

/-! ## The running sum -/

/-- The block's update at an entry: the old entry plus the tile's value. -/
theorem pay1_apply (v37 : FVec Ideal S1x1 .f32) (v38 : Vec Ideal S1x1 .f32) (j : S1x1.Idx) :
    k0_pay1 (F := Ideal) v37 v38 j = v38 j + v37 j := by
  unfold k0_pay1
  show (shapeCast S1x1 v38 shapeCasts_S1x1_S1x1) j + v37 j = _
  rw [shapeCast_self]

/-- The zero block's entries are zero. -/
theorem pay2_apply (j : S1x1.Idx) : k0_pay2 (F := Ideal) j = 0 := by
  show Ideal.ofBits .f32 0x00000000#32 = 0
  exact Ideal.ofBits_zero_f32

/-- Grid point `t` has the one coordinate `t`. -/
theorem coords0 : ∀ t : Fin cfg0.N, (grid0.coords t 0).val = t.val :=
  (by decide +kernel : ∀ t : Fin grid0.N, (grid0.coords t 0).val = t.val)

variable (m : (ℓ : Loc nD τ sig) → Buf (Elt Ideal) ℓ) (ρ : Dev nD → PrngReg)

/-- The three argument arrays on core `c`: samples, labels, centers. -/
abbrev X (c : Dev nD) : SX.Idx → EReal := m ((c : Thread nD τ).loc main_arg0)
abbrev Lab (c : Dev nD) : SL.Idx → BitVec 32 := m ((c : Thread nD τ).loc main_arg1)
abbrev Cen (c : Dev nD) : SC.Idx → EReal := m ((c : Thread nD τ).loc main_arg2)

/-- The tile that point `t` adds, at the block's one entry. -/
theorem tile_at (c : Dev nD) (t : Fin cfg0.N) (j : S1x1.Idx) :
    k0_pay3 (F := Ideal) (grid0.coords t) (iblk m c 0 t) (iblk m c 1 t) (iblk m c 2 t) (iblk m c 3 t) j
      = tileN (X m c) (Lab m c) (Cen m c) t.val := by
  have ht : t.val < 100 := lt_of_lt_of_eq t.isLt (show cfg0.N = 100 from N_0)
  refine (pay3_apply (X m c) (Lab m c) (Cen m c) ⟨t.val, ht⟩ (grid0.coords t) (coords0 t)
    (iblk m c 0 t) (iblk m c 1 t) (iblk m c 2 t) (iblk m c 3 t)
    (Blocks.centers_apply m c t ht) (Blocks.samples_apply m c t) (Blocks.sqnorms_apply m c t) (Blocks.labels_apply m c t) j).trans ?_
  exact (tileN_of_lt (X m c) (Lab m c) (Cen m c) ⟨t.val, ht⟩).symm

/-- After point `n` the output block's entry is the sum of the tiles `0 … n`: by induction on the point, the first
    point starting from the zero block, every later one adding its tile to what the point before left. -/
theorem outsAt_eq (c : Dev nD) : ∀ (n : ℕ) (h : n < cfg0.N) (j : S1x1.Idx),
    outsAt0 m c n h j = ∑ t ∈ Finset.range (n + 1), tileN (X m c) (Lab m c) (Cen m c) t
  | 0, h, j => by
    refine (congrFun ((outsAt0_A m c ⟨0, h⟩ rfl).trans (out_A c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) _
      (iblk m c 0 ⟨0, h⟩) (iblk m c 1 ⟨0, h⟩) (iblk m c 2 ⟨0, h⟩) (iblk m c 3 ⟨0, h⟩))) j).trans ?_
    refine (pay1_apply _ _ j).trans ?_
    rw [pay2_apply, zero_add, Finset.sum_range_one]
    exact tile_at m c ⟨0, h⟩ j
  | n + 1, h, j => by
    have hN : cfg0.N = 100 := N_0
    have hB : ¬(⟨n + 1, h⟩ : Fin cfg0.N).val % 100 = 0 := by dsimp only; omega
    refine (congrFun ((outsAt0_B m c ⟨n + 1, h⟩ hB).trans (out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) _
      (iblk m c 0 ⟨n + 1, h⟩) (iblk m c 1 ⟨n + 1, h⟩) (iblk m c 2 ⟨n + 1, h⟩) (iblk m c 3 ⟨n + 1, h⟩) _)) j).trans ?_
    refine (pay1_apply _ _ j).trans ?_
    rw [Finset.sum_range_succ]
    exact congrArg₂ (· + ·) (outsAt_eq c n (Nat.lt_of_succ_lt h) j) (tile_at m c ⟨n + 1, h⟩ j)

/-! ## The result array and the program's result -/

/-- The last grid point. -/
def tlast : Fin cfg0.N := ⟨99, lt_of_lt_of_eq (by decide : 99 < 100) (show cfg0.N = 100 from N_0).symm⟩

/-- The one-entry result array: the total of all cells. -/
abbrev result (c : Dev nD) : Buf (Elt Ideal) ((c : Thread nD τ).loc main_v4) := fun _ => total (X m c) (Lab m c) (Cen m c)

/-- After the last point the output block holds the total: the running sum of all 100 tiles. -/
theorem outsAt_last (c : Dev nD) : outsAt0 m c (tlast).val (tlast).isLt = result m c := by
  funext j
  exact (outsAt_eq m c 99 _ j).trans (total_eq_range (X m c) (Lab m c) (Cen m c)).symm

/-- The one write-back, after the last point, writes the total: block (0, 0) of the one-entry array is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 100 := N_0
  have h99 : t.val = 99 := by have := (flush0_4 t).mp hf; have := t.isLt; omega
  obtain rfl : t = tlast := Fin.ext h99
  show (cfg0.win 4).cut (grid0.coords tlast) ((dats m 0 c).after 4 tlast) = _
  rw [after0_4, outsAt_last]
  have hz' : (fun a => win0_4.index tlast a * main_v4.ty.shape.size a) = fun _ => 0 := funext fun a => by fin_cases a <;> decide +kernel
  exact (Memref.read_access_unit_zero (Elt Ideal) main_v4 hz' (fun a => by rw [congrFun hz' a]; simp) (result m c)).symm

/-- So the result array ends holding the total. -/
theorem final_o (c : Dev nD) : (dats m 0 c).arrAt 4 cfg0.N = result m c :=
  (dats m 0 c).arrAt_eq_of_cover 4 (result m c) (flushed_eq m c) fun i =>
    ⟨tlast, (flush0_4 tlast).mpr rfl, by
      show i ∈ ((View.whole main_v4).slice (win0_4.rect tlast)).set
      rw [View.set_slice_whole, Rect.mem_set_unit]
      intro a
      have h0 : (i 0 : Nat) < 1 := (i 0).isLt
      have h1 : (i 1 : Nat) < 1 := (i 1).isLt
      match a with
      | ⟨0, _⟩ => show win0_4.index tlast 0 * win0_4.size 0 ≤ (i 0 : Nat) ∧ (i 0 : Nat) < win0_4.index tlast 0 * win0_4.size 0 + win0_4.xsize (grid0.coords tlast) 0
                  rw [show win0_4.index tlast 0 * win0_4.size 0 = 0 from by decide +kernel, show win0_4.xsize (grid0.coords tlast) 0 = 1 from by decide +kernel]; omega
      | ⟨1, _⟩ => show win0_4.index tlast 1 * win0_4.size 1 ≤ (i 1 : Nat) ∧ (i 1 : Nat) < win0_4.index tlast 1 * win0_4.size 1 + win0_4.xsize (grid0.coords tlast) 1
                  rw [show win0_4.index tlast 1 * win0_4.size 1 = 0 from by decide +kernel, show win0_4.xsize (grid0.coords tlast) 1 = 1 from by decide +kernel]; omega⟩

/-- The host's lines after the region recast the one-entry array as a scalar and divide it by the batch size: the loss. -/
theorem tail_eq (c : Dev nD) :
    Pipeline.afterTail₀ cfgs (dats m) 0 (V0 m) [hostOps1] c main_v6 = fun _ => loss (X m c) (Lab m c) (Cen m c) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4) = result m c :=
    (Pipeline.withArrays_arr spec0 launch0.win.arr_inj c _ _ 4).trans (final_o m c)
  rw [e]
  funext j
  rfl

/-- The kernel's program, run: its result is the loss of its argument arrays, which end unchanged. -/
theorem run : θ_run defs (onTc (τ := τ) (main (F := Ideal))) ⟨m, fun _ => 0, ρ⟩ fun r => ∀ c : Dev nD,
      r.2.mem ((c : Thread nD τ).loc main_v6) = (fun _ => loss (X m c) (Lab m c) (Cen m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩)
    (run_main m ρ)

end Cert.KernelIdeal.LossValue

end
-- ==== Proof.lean ====
/-
  The center loss: for 1024 samples `x` of 128 features, their labels and 100000 class centers, the sum over every
  sample `b` and class `c` of
      min HI (max LO (if label b = c then (|x_b|² + |cen_c|²) - 2·⟨x_b, cen_c⟩ else 0)),
  divided by 1024 (Proof/Spec.lean: `cell`, `total`, `loss`), on the extended reals.

  The reference forms the whole 1024 × 100000 matrix, masks it by a product with the 0/1 value of the label test,
  clips it and sums it at once (Proof/RefSide.lean). The kernel walks the classes in 100 tiles of 1000: at each
  grid point it forms the tile's 1000 × 1024 matrix, masks it by a select, clips it, sums it along the samples and
  then along the tile's rows, and adds that to a one-entry block it zeroes at the first point and writes back after
  the last (Proof/TilePayload.lean, Proof/Blocks.lean, Proof/KernelValue.lean); the host then divides by 1024.

  The two agree because a product with the value of an equality test is the choice between the factor and zero
  (`a · 0 = 0` holds for every extended real, the infinities too), because the test, the sum of the two squared norms
  and each product under the inner product's sum are symmetric, and because a finite sum of extended reals may be
  re-ordered and re-grouped freely: the sum over the matrix is the sum over the tiles of the sums over each tile.
  None of these laws needs the inputs finite. The ideal pass rewrote nothing, so `preserves` is `True`.
-/
import proofs.«114083_j8040178778749_1_alg».proof.Defs
import proofs.«114083_j8040178778749_1_alg».proof.Proof.Gen.Kernel
import proofs.«114083_j8040178778749_1_alg».proof.Proof.Gen.Kernel.Skeleton
import proofs.«114083_j8040178778749_1_alg».proof.Proof.Gen.Kernel.Launch
import proofs.«114083_j8040178778749_1_alg».proof.Proof.Gen.Kernel.Points
import proofs.«114083_j8040178778749_1_alg».proof.Proof.Gen.Kernel.Frame
import proofs.«114083_j8040178778749_1_alg».proof.Proof.Gen.KernelIdeal
import proofs.«114083_j8040178778749_1_alg».proof.Proof.Gen.KernelIdeal.Skeleton
import proofs.«114083_j8040178778749_1_alg».proof.Proof.Gen.KernelIdeal.Launch
import proofs.«114083_j8040178778749_1_alg».proof.Proof.Gen.KernelIdeal.Points
import proofs.«114083_j8040178778749_1_alg».proof.Proof.Gen.KernelIdeal.Frame
import proofs.«114083_j8040178778749_1_alg».proof.Proof.Gen.ReferenceIdeal
import proofs.«114083_j8040178778749_1_alg».proof.Proof.Gen.ReferenceIdeal.Run
import proofs.«114083_j8040178778749_1_alg».proof.Proof.Gen.ReferenceIdeal.Read
import proofs.«114083_j8040178778749_1_alg».proof.Proof.Gen.Pre_finite_inputs
import proofs.«114083_j8040178778749_1_alg».proof.Proof.RefSide
import proofs.«114083_j8040178778749_1_alg».proof.Proof.KernelValue
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the ideal values. -/
theorem preserves : Cert.preserves_Kernel_KernelIdeal := trivial

/-- Both programs end at the loss of their argument arrays, which agree. -/
theorem algebraic : Cert.algebraic_KernelIdeal_ReferenceIdeal := by
  intro m ρ m' ρ' _ hagree
  refine ⟨fun c => fun _ => Cert.CenterLoss.loss (Cert.KernelIdeal.LossValue.X m c) (Cert.KernelIdeal.LossValue.Lab m c) (Cert.KernelIdeal.LossValue.Cen m c),
    Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
